-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S65536x256 .f32) (main_arg1 : FVec F S65536x256 .f32) (main_arg2 : FVec F S256x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S65536x256 : Shape := ⟨2, ![65536, 256]⟩
abbrev S256x256 : Shape := ⟨2, ![256, 256]⟩
abbrev S512x128 : Shape := ⟨2, ![512, 128]⟩
abbrev S8192x256 : Shape := ⟨2, ![8192, 256]⟩
abbrev S64x128 : Shape := ⟨2, ![64, 128]⟩
abbrev S1024x256 : Shape := ⟨2, ![1024, 256]⟩
abbrev S1024 : Shape := ⟨1, ![1024]⟩
abbrev S8x128 : Shape := ⟨2, ![8, 128]⟩
abbrev S65536 : Shape := ⟨1, ![65536]⟩

abbrev nBuf : Space → Nat
  | .hbm => 5
  | .vmem => 7
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S512x128, .f32⟩
  | .hbm, ⟨4, _⟩ => ⟨S65536, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S256x256, .f32⟩
  | .local _ .vmem, ⟨5, _⟩ => ⟨S64x128, .f32⟩
  | .local _ .vmem, ⟨6, _⟩ => ⟨S64x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v3 : BitVec 32 := Scalar.muli arg5 c1024_i32
  v3
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1024_i32 : BitVec 32 := 1024#32
  let v3 : BitVec 32 := Scalar.muli arg5 c1024_i32
  let v4 : BitVec 32 := v3
  let v5 : Index := Scalar.indexCast v4
  let c0_2 : Index := 0#32
  ![v5.toNat, 0]
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_5 : BitVec 32 := 8#32
  let v14 : BitVec 32 := Scalar.muli arg5 c8_i32_5
  v14
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32_5 : BitVec 32 := 8#32
  let v14 : BitVec 32 := Scalar.muli arg5 c8_i32_5
  let v15 : BitVec 32 := v14
  let v17 : Index := Scalar.indexCast v15
  let c0_6 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  h_S1024x256 : 0 < S1024x256.numel
  reduces_S1024x256_S1024 : S1024x256.Reduces [1] S1024
  shapeCasts_S1024_S8x128 : S1024.ShapeCasts S8x128
  h_S8x128 : 0 < S8x128.numel
  shapeCasts_S512x128_S65536 : S512x128.ShapeCasts S65536
  dot_S1024x256_S256x256_S1024x256_1_0_0_1_n_n_wf : DotDims.WF S1024x256 S256x256 S1024x256 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  k0_mult2_dvd : ∀ k0_t1 : Fin k0_t1_loop.trips, 8 ∣ (k0_mult2 k0_t1).toNat
  k0_off2_inb : ∀ k0_t1 : Fin k0_t1_loop.trips, ∀ a, (k0_off2 k0_t1) a + S8x128.size a ≤ S64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S65536x256.size a
  hwx0_1 : ∀ i : grid0.Coords, EltTy.bits .f32 = 32 ∨ (Rect.block (s := S65536x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S512x128.size a
  hwx0_3 : ∀ i : grid0.Coords, EltTy.bits .f32 = 32 ∨ (Rect.block (s := S512x128) S64x128.size (cc0_transform_3 i) (hinb0_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S_ : Shape := ⟨0, ![]⟩
abbrev S65536 : Shape := ⟨1, ![65536]⟩

abbrev nBuf : Space → Nat
  | .hbm => 8
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S65536x256, .f32⟩
  | .hbm, ⟨4, _⟩ => ⟨S65536x256, .f32⟩
  | .hbm, ⟨5, _⟩ => ⟨S65536x256, .f32⟩
  | .hbm, ⟨6, _⟩ => ⟨S_, .f32⟩
  | .hbm, ⟨7, _⟩ => ⟨S65536, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Spec.lean ====
/-
  The squared Mahalanobis form, row by row.  For two data matrices `x`, `xf` with `R` rows of 256
  entries and a 256 × 256 matrix `s`, row `r` is sent to

      Σ_d ( Σ_k δ[r,k] · s[k,d] ) · δ[r,d],      δ = x − xf,

  read on the extended reals (every input entry may be ±∞ there; the expression is the same on both
  sides of the certificate, so no law of the reals is needed beyond re-indexing the two sums).
-/
import Idealize.ShloMosaic.PureOps.Ideal
import Idealize.ShloMosaic.Lib.ValueIdx

noncomputable section

namespace Mahalanobis

open Idealize.ShloMosaic Idealize.ShloMosaic.ValueIdx

/-- Row `r` of `(x − xf) · s`, multiplied entry by entry with row `r` of `x − xf` and summed. -/
def rowForm {R : Nat} (x xf : FVec Ideal ⟨2, ![R, 256]⟩ .f32) (s : FVec Ideal ⟨2, ![256, 256]⟩ .f32) (r : Fin R) : EReal :=
  ∑ d : Fin 256, (∑ k : Fin 256, (x (ix2 r k) - xf (ix2 r k)) * s (ix2 k d)) * (x (ix2 r d) - xf (ix2 r d))

/-- The form of a row depends only on that row of the two data matrices: if `y`, `yf` hold, at row `r'`,
    what `x`, `xf` hold at row `r`, the two forms agree. -/
theorem rowForm_congr {R R' : Nat} (x xf : FVec Ideal ⟨2, ![R, 256]⟩ .f32) (y yf : FVec Ideal ⟨2, ![R', 256]⟩ .f32)
    (s : FVec Ideal ⟨2, ![256, 256]⟩ .f32) (r : Fin R) (r' : Fin R')
    (hx : ∀ k : Fin 256, y (ix2 r' k) = x (ix2 r k)) (hxf : ∀ k : Fin 256, yf (ix2 r' k) = xf (ix2 r k)) :
    rowForm y yf s r' = rowForm x xf s r := by
  unfold rowForm
  refine Finset.sum_congr rfl fun d _ => ?_
  rw [hx d, hxf d]
  refine congrArg (· * _) (Finset.sum_congr rfl fun k _ => ?_)
  rw [hx k, hxf k]

/-- The same when the matrix, too, is only known entry by entry. -/
theorem rowForm_congr_all {R R' : Nat} (x xf : FVec Ideal ⟨2, ![R, 256]⟩ .f32) (y yf : FVec Ideal ⟨2, ![R', 256]⟩ .f32)
    (s s' : FVec Ideal ⟨2, ![256, 256]⟩ .f32) (r : Fin R) (r' : Fin R')
    (hx : ∀ k : Fin 256, y (ix2 r' k) = x (ix2 r k)) (hxf : ∀ k : Fin 256, yf (ix2 r' k) = xf (ix2 r k))
    (hs : ∀ k d : Fin 256, s' (ix2 k d) = s (ix2 k d)) :
    rowForm y yf s' r' = rowForm x xf s r := by
  have e : s' = s := funext fun j => by rw [eq_ix2 j]; exact hs _ _
  rw [e]
  exact rowForm_congr x xf y yf s r r' hx hxf

/-- The whole result: entry `n` of the length-65536 vector is the form of row `n`. -/
def result (a0 a1 : FVec Ideal ⟨2, ![65536, 256]⟩ .f32) (a2 : FVec Ideal ⟨2, ![256, 256]⟩ .f32) :
    FVec Ideal ⟨1, ![65536]⟩ .f32 :=
  fun i => rowForm (R := 65536) a0 a1 a2 (i 0)

end Mahalanobis

end
-- ==== Proof.RefValue.lean ====
/-
  The reference computes, at entry `n` of its result, the squared Mahalanobis form of row `n`:
  the host's subtraction, matrix product, entrywise product and row sum read at an index, the row
  sum's initial value being zero.
-/
import proofs.«137996_j5437428597311_2_alg».proof.Proof.Gen.ReferenceIdeal.Read
import proofs.«137996_j5437428597311_2_alg».proof.Proof.Spec

noncomputable section

namespace Cert.ReferenceIdeal.RefValue

open Cert.ReferenceIdeal Cert.ReferenceIdeal.Gen Idealize.ShloMosaic Idealize.ShloMosaic.ValueIdx

/-- Entry `n` of the reference's result is the form of row `n`. -/
theorem ref_apply (x0 x1 : (⟨S65536x256, .f32⟩ : BufTy).Contents (Elt Ideal)) (x2 : (⟨S256x256, .f32⟩ : BufTy).Contents (Elt Ideal))
    (n : Fin 65536) :
    Read.val_main_v3 (F := Ideal) x0 x1 x2 (ix1 n) = Mahalanobis.rowForm x0 x1 x2 n := by
  have e3 : ∀ d : Fin 256, Read.idx_main_v3 (ix1 n) d = ix2 n d := fun d =>
    funext fun a => Fin.ext (by match a with | ⟨0, _⟩ => rfl | ⟨1, _⟩ => rfl)
  have el : ∀ d k : Fin 256, Read.lidx_main_v1 (ix2 n d) k = ix2 n k := fun d k =>
    funext fun a => Fin.ext (by match a with | ⟨0, _⟩ => rfl | ⟨1, _⟩ => rfl)
  have er : ∀ d k : Fin 256, Read.ridx_main_v1 (ix2 n d) k = ix2 k d := fun d k =>
    funext fun a => Fin.ext (by match a with | ⟨0, _⟩ => rfl | ⟨1, _⟩ => rfl)
  rw [Read.val_main_v3_apply, Read.val_main_cst_apply, Ideal.ofBits_def, Ideal.ofBits_zero_f32, zero_add]
  unfold Mahalanobis.rowForm
  refine Finset.sum_congr rfl fun d _ => ?_
  rw [e3 d, Read.val_main_v2_apply, Read.val_main_v1_apply, Read.val_main_v0_apply]
  simp only [el, er, Read.val_main_v0_apply, Ideal.mulf_def, Ideal.subf_def]

/-- So the reference's whole result is the row-by-row form of its arguments. -/
theorem ref_result (x0 x1 : (⟨S65536x256, .f32⟩ : BufTy).Contents (Elt Ideal)) (x2 : (⟨S256x256, .f32⟩ : BufTy).Contents (Elt Ideal)) :
    Read.val_main_v3 (F := Ideal) x0 x1 x2 = Mahalanobis.result x0 x1 x2 := by
  funext (i : S65536.Idx)
  obtain ⟨n, rfl⟩ : ∃ n : Fin 65536, i = ix1 n := ⟨i 0, eq_ix1 i⟩
  exact ref_apply x0 x1 x2 n

end Cert.ReferenceIdeal.RefValue

end
-- ==== Proof.Payload.lean ====
/-
  What one trip of the body's loop stores, read at an entry.  From a 1024-row slab of the two data
  blocks and the whole 256 × 256 matrix the trip forms δ = slab(x) − slab(xf), the product δ · s on
  the matrix unit (into a zero accumulator; the change of format on the way in is the identity on the
  extended reals), the entrywise product (δ · s) ∘ δ, its sum along each row, and lays the 1024 row
  sums out as 8 rows of 128.  So entry (p, q) of what is stored is the squared Mahalanobis form of
  slab row 128·p + q.
-/
import proofs.«137996_j5437428597311_2_alg».proof.Proof.Gen.KernelIdeal.Skeleton
import proofs.«137996_j5437428597311_2_alg».proof.Proof.Spec
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx

/-- The row coordinate of the left operand's index is the output's row. -/
theorem lhs_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

/-- The column coordinate of the right operand's index is the output's column. -/
theorem rhs_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The slab's matrix product into the zero accumulator, at entry (r, d): Σ_k a[r,k] · b[k,d]. -/
theorem matmul_entry (a : FVec Ideal S1024x256 .bf16) (b : FVec Ideal S256x256 .bf16) (r : Fin 1024) (d : Fin 256) :
    matmul dot_S1024x256_S256x256_S1024x256_1_0_0_1_n_n none a b (constant S1024x256 .f32 0x00000000#32) (ix2 r d)
      = ∑ k : Fin 256, a (ix2 r k) * b (ix2 k d) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r d) ((contrEquiv1 dot_S1024x256_S256x256_S1024x256_1_0_0_1_n_n 256 rfl rfl).symm k) = ix2 r k := funext fun a => Fin.ext (by
    match a with
    | ⟨0, _⟩ => exact lhs_row _ _
    | ⟨1, _⟩ => exact (dot_S1024x256_S256x256_S1024x256_1_0_0_1_n_n.lhsIdx_val_of_single rfl _ _).trans hk)
  have er : dot_S1024x256_S256x256_S1024x256_1_0_0_1_n_n.rhsIdx (ix2 r d) ((contrEquiv1 dot_S1024x256_S256x256_S1024x256_1_0_0_1_n_n 256 rfl rfl).symm k) = ix2 k d := funext fun a => Fin.ext (by
    match a with
    | ⟨0, _⟩ => exact (dot_S1024x256_S256x256_S1024x256_1_0_0_1_n_n.rhsIdx_val_of_single rfl _ _).trans hk
    | ⟨1, _⟩ => exact rhs_col _ _)
  rw [el, er]

/-- Entry (p, q) of what a trip stores is the form of slab row `r = 128·p + q`. -/
theorem pay_apply (v0 : Vec Ideal S256x256 .f32) (v6 v8 : Vec Ideal S1024x256 .f32) (p : Fin 8) (q : Fin 128) (r : Fin 1024)
    (hr : r.val = 128 * p.val + q.val) :
    k0_pay1 (F := Ideal) v0 v6 v8 (ix2 p q) = Mahalanobis.rowForm v6 v8 v0 r := by
  unfold k0_pay1
  refine (shapeCast_apply _ _ (ix2 p q) (ix1 r) ?_).trans ?_
  · rw [Shape.rowMajor_val_one, Shape.rowMajor_val_two]
    show r.val = p.val * 128 + q.val
    omega
  refine (Ideal.multiReduction_add_single _ 0x00000000#32 reduces_S1024x256_S1024 (.inl rfl) rfl (ix1 r)).trans ?_
  unfold Mahalanobis.rowForm
  show (∑ d : Fin 256, _) = _
  refine Finset.sum_congr rfl fun d _ => ?_
  have e : reduces_S1024x256_S1024.lift (ix1 r) d = ix2 r d :=
    funext fun a => Fin.ext (by match a with | ⟨0, _⟩ => rfl | ⟨1, _⟩ => rfl)
  rw [e, mulf_apply, matmul_entry]
  rfl

end Cert.KernelIdeal.PayValue

end
-- ==== Proof.BlockValue.lean ====
/-
  What the body leaves in the output's staging buffer at one grid point.  The body's loop makes 8
  trips; trip `k` reads rows 1024·k … 1024·k + 1023 of the two data blocks (8192 rows each), and
  stores an 8 × 128 tile at rows 8·k … 8·k + 7 of the 64 × 128 output block.  Entry (p, q) of that
  tile is the squared Mahalanobis form of slab row 128·p + q, that is of block row
  1024·k + 128·p + q = 128·(8·k + p) + q.  So every stored tile is a tile of ONE function of the
  output block's index — entry (a, b) ↦ the form of block row 128·a + b — and, the 8 tiles covering
  the block, the block holds that function.
-/
import proofs.«137996_j5437428597311_2_alg».proof.Proof.Gen.KernelIdeal.Frame
import proofs.«137996_j5437428597311_2_alg».proof.Proof.Payload
import Idealize.ShloMosaic.Lib.Pipeline.Value

noncomputable section

namespace Cert.KernelIdeal.BlockValue

open Cert.KernelIdeal Cert.KernelIdeal.Gen Idealize.ShloMosaic Idealize.ShloMosaic.TcCoe Idealize.ShloMosaic.ValueIdx Idealize.SL.Sem

theorem hz : (![0, 0] : Fin 2 → Nat) = fun _ => 0 := funext fun a => by fin_cases a <;> rfl

/-- The block row an entry of the 64 × 128 output block stands for. -/
def rowOf (j : S64x128.Idx) : Fin 8192 :=
  ⟨128 * (j 0).val + (j 1).val, by have := idx2_lt0 j; have := idx2_lt1 j; omega⟩

/-- The output block as one function of the three input blocks: entry `j` is the form of block row `rowOf j`. -/
def blockForm (x0 x1 : Vec Ideal S8192x256 .f32) (x2 : Vec Ideal S256x256 .f32) : Vec Ideal S64x128 .f32 :=
  fun j => Mahalanobis.rowForm x0 x1 x2 (rowOf j)

/-- ONE trip's one piece: a tile of `blockForm`. -/
theorem trip_piece (𝒱 : Variants) (c : Dev nD) (bd : Option 𝒱.V) (i : grid0.Coords) (arg1 : Memref sig .tc .vmem S8192x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S64x128 .f32) (harg4 : arg4.IsWhole)
    (x0 x1 : Vec Ideal S8192x256 .f32) (x2 : Vec Ideal S256x256 .f32) (k : Fin k0_t1_loop.trips) :
    ∀ p ∈ tripL_k0_t1 (F := Ideal) 𝒱 c bd i arg1 harg1 arg2 harg2 arg3 harg3 arg4 harg4 x2 (harg1.unread x0) (harg2.unread x1) k,
      ∀ x : p.1.shape.Idx, p.2 x = blockForm x0 x1 x2 (p.1.emb x) := by
  have o1 : (k0_off1 k) 0 = 1024 * k.val := by rw [k0_off1_eq]; rfl
  have o1' : (k0_off1 k) 1 = 0 := by rw [k0_off1_eq]; rfl
  have o2 : (k0_off2 k) 0 = 8 * k.val := by rw [k0_off2_eq]; rfl
  have o2' : (k0_off2 k) 1 = 0 := by rw [k0_off2_eq]; rfl
  unfold tripL_k0_t1 trip_k0_t1
  dsimp only
  intro p hp
  obtain rfl := List.mem_singleton.mp hp
  intro x
  obtain ⟨p, q, rfl⟩ : ∃ (p : Fin 8) (q : Fin 128), x = ix2 p q := ⟨x 0, x 1, eq_ix2 x⟩
  dsimp only
  rw [View.readAt_eq_ld, View.readAt_eq_ld, harg1.read_unread, harg2.read_unread]
  have hp := p.isLt
  have hq := q.isLt
  refine (PayValue.pay_apply x2 _ _ p q ⟨128 * p.val + q.val, by omega⟩ rfl).trans ?_
  unfold blockForm
  refine Mahalanobis.rowForm_congr x0 x1 _ _ x2 _ _ (fun d => ?_) (fun d => ?_)
  · refine congrArg x0 (funext fun a => Fin.ext ?_)
    match a with
    | ⟨0, _⟩ =>
      show (k0_off1 k) 0 + 1 * (128 * p.val + q.val) = 128 * ((k0_off2 k) 0 + 1 * p.val) + ((k0_off2 k) 1 + 1 * q.val)
      rw [o1, o2, o2']; omega
    | ⟨1, _⟩ =>
      show (k0_off1 k) 1 + 1 * d.val = d.val
      rw [o1']; omega
  · refine congrArg x1 (funext fun a => Fin.ext ?_)
    match a with
    | ⟨0, _⟩ =>
      show (k0_off1 k) 0 + 1 * (128 * p.val + q.val) = 128 * ((k0_off2 k) 0 + 1 * p.val) + ((k0_off2 k) 1 + 1 * q.val)
      rw [o1, o2, o2']; omega
    | ⟨1, _⟩ =>
      show (k0_off1 k) 1 + 1 * d.val = d.val
      rw [o1']; omega

/-- So the pieces of the trips before any trip count are all tiles of `blockForm`: by induction on the count. -/
theorem pb_pieces (𝒱 : Variants) (c : Dev nD) (bd : Option 𝒱.V) (i : grid0.Coords) (arg1 : Memref sig .tc .vmem S8192x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S64x128 .f32) (harg4 : arg4.IsWhole)
    (x0 x1 : Vec Ideal S8192x256 .f32) (x2 : Vec Ideal S256x256 .f32) :
    ∀ n : ℕ, ∀ p ∈ pb_k0_t1 (F := Ideal) 𝒱 c bd i arg1 harg1 arg2 harg2 arg3 harg3 arg4 harg4 x2 (harg1.unread x0) (harg2.unread x1) n,
      ∀ x : p.1.shape.Idx, p.2 x = blockForm x0 x1 x2 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with h | h
      · exact trip_piece 𝒱 c bd i arg1 harg1 arg2 harg2 arg3 harg3 arg4 harg4 x0 x1 x2 _ p h
      · exact pb_pieces 𝒱 c bd i arg1 harg1 arg2 harg2 arg3 harg3 arg4 harg4 x0 x1 x2 n p h
    · exact pb_pieces 𝒱 c bd i arg1 harg1 arg2 harg2 arg3 harg3 arg4 harg4 x0 x1 x2 n p hp

/-- What the body leaves in the output's staging buffer: `blockForm` of the three input blocks. -/
theorem out_eq (c : Dev nD) (i : grid0.Coords) (arg1 : Memref sig .tc .vmem S8192x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S64x128 .f32) (harg4 : arg4.IsWhole)
    (x0 x1 : Vec Ideal S8192x256 .f32) (x2 : Vec Ideal S256x256 .f32) :
    out0_A_3 (F := Ideal) c i arg1 harg1 arg2 harg2 arg3 harg3 arg4 harg4 x0 x1 x2 = blockForm x0 x1 x2 := by
  funext y
  unfold out0_A_3
  rw [View.read_writes_eq_canon _ _ _ (cover0_A_3 c i arg1 harg1 arg2 harg2 arg3 harg3 arg4 harg4 x0 x1 x2)]
  refine View.canon_apply_of_pieces (blockForm x0 x1 x2) _ ?_ y (cover0_A_3 c i arg1 harg1 arg2 harg2 arg3 harg3 arg4 harg4 x0 x1 x2 y)
  unfold kernelRun0_A
  dsimp only
  rw [View.readAt_eq_ld, harg3.read_unread, View.ld_unit_zero (S := S256x256) hz]
  exact pb_pieces Variants.none c none i arg1 harg1 arg2 harg2 arg3 harg3 arg4 harg4 x0 x1 x2 _

end Cert.KernelIdeal.BlockValue

end
-- ==== Proof.ArrayValue.lean ====
/-
  From blocks to the array, and through the final reshape.  Grid point `t` (of 8) reads rows
  8192·t … 8192·t + 8191 of the two data matrices and the whole 256 × 256 matrix, and writes back
  rows 64·t … 64·t + 63 of the 512 × 128 output array.  Entry (a, b) of the block it writes is the
  squared Mahalanobis form of block row 128·a + b, that is of data row
  8192·t + 128·a + b = 128·(64·t + a) + b: the block is a block of ONE function of the output
  array's index — entry (A, B) ↦ the form of data row 128·A + B.  The 8 blocks tile the array, so
  the array ends holding that function; the host's reshape to a length-65536 vector then puts the
  form of row `n` at entry `n`.
-/
import proofs.«137996_j5437428597311_2_alg».proof.Proof.BlockValue
import Idealize.ShloMosaic.Lib.StableHlo.Run

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The data row an entry of the 512 × 128 output array stands for. -/
def rowOfArr (i : S512x128.Idx) : Fin 65536 :=
  ⟨128 * (i 0).val + (i 1).val, by have := idx2_lt0 i; have := idx2_lt1 i; omega⟩

/-- The output array as one function of the three argument arrays. -/
def arrForm (a0 a1 : Vec Ideal S65536x256 .f32) (a2 : Vec Ideal S256x256 .f32) : Vec Ideal S512x128 .f32 :=
  fun i => Mahalanobis.rowForm a0 a1 a2 (rowOfArr i)

/-- The printed index maps over the grid: the data windows and the output window sit at block `t` of their
    first axis, the matrix window at its one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `arrForm` of the argument arrays as the region finds them. -/
theorem flushed_eq (c : Dev nD) (t : Fin cfg0.N) :
    (dats m 0 c).flushed 3 t
      = ((cfg0.win 3).blk t).view.read (Elt Ideal) (arrForm (V m c main_arg0) (V m c main_arg1) (V m c main_arg2)) := by
  show (cfg0.win 3).cut (grid0.coords t) ((dats m 0 c).after 3 t) = _
  rw [after0_3]
  unfold outsAt0
  refine (BlockValue.out_eq c (grid0.coords t) (ms0_0 t) (hs0_0 t) (ms0_1 t) (hs0_1 t) (ms0_2 t) (hs0_2 t) (ms0_3 t) (hs0_3 t)
    (iblk m c 0 t) (iblk m c 1 t) (iblk m c 2 t)).trans ?_
  obtain ⟨e00, e01, e10, e11, e20, e21, e30, e31⟩ := idx_facts t
  funext j
  have hj0 : (j 0).val < 64 := (j 0).isLt
  have hj1 : (j 1).val < 128 := (j 1).isLt
  show Mahalanobis.rowForm (iblk m c 0 t) (iblk m c 1 t) (iblk m c 2 t) (BlockValue.rowOf j)
    = Mahalanobis.rowForm (V m c main_arg0) (V m c main_arg1) (V m c main_arg2) (rowOfArr (((cfg0.win 3).blk t).view.emb j))
  refine Mahalanobis.rowForm_congr_all (V m c main_arg0) (V m c main_arg1) (iblk m c 0 t) (iblk m c 1 t)
    (V m c main_arg2) (iblk m c 2 t) _ _ (fun k => ?_) (fun k => ?_) (fun k d => ?_)
  · show V m c main_arg0 (((cfg0.win 0).blk t).view.emb (ix2 (BlockValue.rowOf j) k)) = V m c main_arg0 (ix2 (rowOfArr (((cfg0.win 3).blk t).view.emb j)) k)
    refine congrArg (V m c main_arg0) (funext fun a => Fin.ext ?_)
    match a with
    | ⟨0, _⟩ =>
      show win0_0.index t (0 : Fin 2) * 8192 + 1 * (128 * (j 0).val + (j 1).val)
        = 128 * (win0_3.index t (0 : Fin 2) * 64 + 1 * (j 0).val) + (win0_3.index t (1 : Fin 2) * 128 + 1 * (j 1).val)
      omega
    | ⟨1, _⟩ =>
      show win0_0.index t (1 : Fin 2) * 256 + 1 * k.val = k.val
      omega
  · show V m c main_arg1 (((cfg0.win 1).blk t).view.emb (ix2 (BlockValue.rowOf j) k)) = V m c main_arg1 (ix2 (rowOfArr (((cfg0.win 3).blk t).view.emb j)) k)
    refine congrArg (V m c main_arg1) (funext fun a => Fin.ext ?_)
    match a with
    | ⟨0, _⟩ =>
      show win0_1.index t (0 : Fin 2) * 8192 + 1 * (128 * (j 0).val + (j 1).val)
        = 128 * (win0_3.index t (0 : Fin 2) * 64 + 1 * (j 0).val) + (win0_3.index t (1 : Fin 2) * 128 + 1 * (j 1).val)
      omega
    | ⟨1, _⟩ =>
      show win0_1.index t (1 : Fin 2) * 256 + 1 * k.val = k.val
      omega
  · show V m c main_arg2 (((cfg0.win 2).blk t).view.emb (ix2 k d)) = V m c main_arg2 (ix2 k d)
    refine congrArg (V m c main_arg2) (funext fun a => Fin.ext ?_)
    match a with
    | ⟨0, _⟩ =>
      show win0_2.index t (0 : Fin 2) * 256 + 1 * k.val = k.val
      omega
    | ⟨1, _⟩ =>
      show win0_2.index t (1 : Fin 2) * 256 + 1 * d.val = d.val
      omega

/-- An index of the output array is in point `t`'s block iff each coordinate is in the block's range. -/
theorem mem_blk (t : Fin cfg0.N) (i : S512x128.Idx) :
    i ∈ ((cfg0.win 3).blk t).view.set ↔ ∀ a : Fin 2, win0_3.index t a * S64x128.size a ≤ (i a).val ∧ (i a).val < win0_3.index t a * S64x128.size a + S64x128.size a := by
  show i ∈ ((View.whole main_v0).slice (win0_3.rect t)).set ↔ _
  rw [View.set_slice_whole, Rect.mem_set_unit]
  exact Iff.rfl

/-- Every index of the output array is in the block of the point that its row selects: row `A` is in block `A / 64`. -/
theorem cover (i : S512x128.Idx) : ∃ t : Fin cfg0.N, (cfg0.win 3).flush t = true ∧ i ∈ ((cfg0.win 3).blk t).view.set := by
  have hi0 : (i 0).val < 512 := (i 0).isLt
  have hi1 : (i 1).val < 128 := (i 1).isLt
  have hN : cfg0.N = 8 := N_0
  refine ⟨⟨(i 0).val / 64, by rw [hN]; omega⟩, flush0_3 _, ?_⟩
  rw [mem_blk]
  obtain ⟨-, -, -, -, -, -, e30, e31⟩ := idx_facts ⟨(i 0).val / 64, by rw [hN]; omega⟩
  intro a
  match a with
  | ⟨0, _⟩ =>
    show win0_3.index ⟨(i 0).val / 64, _⟩ (0 : Fin 2) * 64 ≤ (i 0).val ∧ (i 0).val < win0_3.index ⟨(i 0).val / 64, _⟩ (0 : Fin 2) * 64 + 64
    rw [e30]; dsimp only; omega
  | ⟨1, _⟩ =>
    show win0_3.index ⟨(i 0).val / 64, _⟩ (1 : Fin 2) * 128 ≤ (i 1).val ∧ (i 1).val < win0_3.index ⟨(i 0).val / 64, _⟩ (1 : Fin 2) * 128 + 128
    rw [e31]; omega

/-- The output array after the run: `arrForm` of the argument arrays. -/
theorem final (c : Dev nD) : (dats m 0 c).arrAt 3 cfg0.N
    = arrForm (m ((c : Thread nD τ).loc main_arg0)) (m ((c : Thread nD τ).loc main_arg1)) (m ((c : Thread nD τ).loc main_arg2)) :=
  (dats m 0 c).arrAt_eq_of_cover 3 (arrForm (V m c main_arg0) (V m c main_arg1) (V m c main_arg2)) (fun t _ => flushed_eq m c t) cover

/-- The program's result: after the region the host reshapes the 512 × 128 array to a length-65536 vector, row-major,
    so entry `n` reads the array at (n / 128, n % 128), which stands for data row `n`. -/
theorem kernel_result (c : Dev nD) :
    Pipeline.afterTail₀ cfgs (dats m) 0 (V0 m) [hostOps1] c main_v1
      = Mahalanobis.result (m ((c : Thread nD τ).loc main_arg0)) (m ((c : Thread nD τ).loc main_arg1)) (m ((c : Thread nD τ).loc main_arg2)) := by
  have hw := (Pipeline.withArrays_arr spec0 launch0.win.arr_inj c (V0 m c) (fun w => (dats m 0 c).arrAt w cfg0.N) 3).trans (final m c)
  unfold Pipeline.afterTail₀
  show StableHlo.after hostOps1 _ (Proc.devRef .tc main_v1) = _
  after_results
  funext (i : S65536.Idx)
  obtain ⟨n, rfl⟩ : ∃ n : Fin 65536, i = ix1 n := ⟨i 0, eq_ix1 i⟩
  show shapeCast S65536 (Pipeline.withArrays spec0 c (V0 m c) (fun w => (dats m 0 c).arrAt w cfg0.N) (Proc.devRef .tc main_v0))
    shapeCasts_S512x128_S65536 (ix1 n) = _
  have hn := n.isLt
  refine (shapeCast_apply _ _ (ix1 n) (ix2 (⟨n.val / 128, by omega⟩ : Fin 512) (⟨n.val % 128, Nat.mod_lt _ (by decide)⟩ : Fin 128)) ?_).trans ?_
  · rw [Shape.rowMajor_val_two, Shape.rowMajor_val_one]
    show n.val / 128 * 128 + n.val % 128 = n.val
    omega
  refine (congrFun hw _).trans ?_
  show Mahalanobis.rowForm _ _ _ (rowOfArr (ix2 _ _)) = Mahalanobis.rowForm _ _ _ n
  refine congrArg (Mahalanobis.rowForm _ _ _) (Fin.ext ?_)
  show 128 * (n.val / 128) + n.val % 128 = n.val
  omega

/-- The result buffer is no array of the pipeline and is not scoped: the frame run's post speaks of it. -/
theorem main_v1_rest : main_v1 ∈ Pipeline.restRefs sig cfg0.spec :=
  Pipeline.mem_restRefs_of main_v1 rfl (by decide)

/-- The run, read: the result at the row-by-row form of the arguments, the arguments unchanged. -/
theorem run : θ_run defs (onTc (τ := τ) (main (F := Ideal))) ⟨m, fun _ => 0, ρ⟩ fun r => ∀ c : Dev nD,
      r.2.mem ((c.tc : Thread nD τ).loc main_v1)
        = Mahalanobis.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v1 main_v1_rest).trans (kernel_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ArrayValue

end
-- ==== Proof.lean ====
/-
  The squared Mahalanobis distance of each of 65536 rows: out[n] = δ[n] · S · δ[n]ᵀ with δ = x − x_fit,
  computed row-wise as Σ_d (δ · S)[n,d] · δ[n,d].

  The kernel walks the rows in 8 grid points of 8192 rows, each in 8 loop trips of 1024 rows; a trip
  forms δ on its slab, multiplies by S on the matrix unit (the rounding to a narrower float format on
  the way in is the identity on the extended reals), multiplies entrywise by δ, sums along each row and
  stores the 1024 row sums as an 8 × 128 tile of a 512 × 128 array that the host finally reshapes to a
  length-65536 vector.  The reference is the same expression on the whole arrays.

  Both programs therefore compute, at entry n, the SAME expression of row n of x, x_fit and of S
  (`Mahalanobis.rowForm`); the proof is bookkeeping of indices — a tile's entry (p, q) is slab row
  128·p + q, a block's entry (a, b) is block row 128·a + b, the array's entry (A, B) is data row
  128·A + B, and the reshape reads entry n at (n / 128, n % 128) — and no law of arithmetic beyond
  0 + s = s for the reference's initial value.  The precondition (finite inputs) is not used.

  The three frames are the generated ones (the reference's is its run with the result dropped); the
  idealization rewrote nothing, so `preserves` is trivial.
-/
import proofs.«137996_j5437428597311_2_alg».proof.Defs
import proofs.«137996_j5437428597311_2_alg».proof.Proof.Gen.Kernel
import proofs.«137996_j5437428597311_2_alg».proof.Proof.Gen.Kernel.Skeleton
import proofs.«137996_j5437428597311_2_alg».proof.Proof.Gen.Kernel.Loops
import proofs.«137996_j5437428597311_2_alg».proof.Proof.Gen.Kernel.Launch
import proofs.«137996_j5437428597311_2_alg».proof.Proof.Gen.Kernel.Points
import proofs.«137996_j5437428597311_2_alg».proof.Proof.Gen.Kernel.Frame
import proofs.«137996_j5437428597311_2_alg».proof.Proof.Gen.KernelIdeal
import proofs.«137996_j5437428597311_2_alg».proof.Proof.Gen.KernelIdeal.Skeleton
import proofs.«137996_j5437428597311_2_alg».proof.Proof.Gen.KernelIdeal.Loops
import proofs.«137996_j5437428597311_2_alg».proof.Proof.Gen.KernelIdeal.Launch
import proofs.«137996_j5437428597311_2_alg».proof.Proof.Gen.KernelIdeal.Points
import proofs.«137996_j5437428597311_2_alg».proof.Proof.Gen.KernelIdeal.Frame
import proofs.«137996_j5437428597311_2_alg».proof.Proof.Gen.ReferenceIdeal
import proofs.«137996_j5437428597311_2_alg».proof.Proof.Gen.ReferenceIdeal.Run
import proofs.«137996_j5437428597311_2_alg».proof.Proof.Gen.ReferenceIdeal.Read
import proofs.«137996_j5437428597311_2_alg».proof.Proof.Gen.Pre_finite_inputs
import proofs.«137996_j5437428597311_2_alg».proof.Proof.Spec
import proofs.«137996_j5437428597311_2_alg».proof.Proof.RefValue
import proofs.«137996_j5437428597311_2_alg».proof.Proof.ArrayValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result vector and the reference's are the same row-by-row form
    (`Mahalanobis.result`) of arguments that agree. -/
theorem algebraic : Cert.algebraic_KernelIdeal_ReferenceIdeal := by
  intro m ρ m' ρ' _ hagree
  refine ⟨fun c => Mahalanobis.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact Cert.ReferenceIdeal.RefValue.ref_result _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
